-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x16x2048x2048 : Shape := ⟨4, ![2, 16, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S2x16x2048x2048 1) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x16x2048x2048 : Shape := ⟨4, ![2, 16, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .i1⟩
  | .hbm, ⟨4, _⟩ => ⟨S2x16x2048x2048, .i32⟩
  | .hbm, ⟨5, _⟩ => ⟨S2x16x2048x64, .f32⟩
  | .hbm, ⟨6, _⟩ => ⟨S2x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x512x2048, .i32⟩
  | .local _ .vmem, ⟨7, _⟩ => ⟨S1x1x512x2048, .i32⟩
  | .local _ .vmem, ⟨8, _⟩ => ⟨S1x1x512x64, .f32⟩
  | .local _ .vmem, ⟨9, _⟩ => ⟨S1x1x512x64, .f32⟩
  | .local _ .vmem, ⟨10, _⟩ => ⟨S1x1x512x2048, .f32⟩
  | .local _ .vmem, ⟨11, _⟩ => ⟨S1x1x512x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  natLt_1_32 : 1 < 32
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x1x512x2048 : S512x2048.ShapeCasts S1x1x512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x16x2048x64.size a
  hwx0_0 : ∀ i : grid0.Coords, EltTy.bits .f32 = 32 ∨ (Rect.block (s := S2x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x2048.size a ≤ S2x16x2048x2048.size a
  hwx0_3 : ∀ i : grid0.Coords, EltTy.bits .i32 = 32 ∨ (Rect.block (s := S2x16x2048x2048) S1x1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S2x16x2048x64.size a
  hwx0_4 : ∀ i : grid0.Coords, EltTy.bits .f32 = 32 ∨ (Rect.block (s := S2x16x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S2x16x2048x2048.size a
  hwx0_5 : ∀ i : grid0.Coords, EltTy.bits .f32 = 32 ∨ (Rect.block (s := S2x16x2048x2048) S1x1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .i1⟩
  | .hbm, ⟨4, _⟩ => ⟨S2x16x2048x2048, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S_, .f32⟩
  | .hbm, ⟨9, _⟩ => ⟨S2x16x2048x2048, .f32⟩
  | .hbm, ⟨10, _⟩ => ⟨S2x16x2048x2048, .f32⟩
  | .hbm, ⟨11, _⟩ => ⟨S_, .f32⟩
  | .hbm, ⟨12, _⟩ => ⟨S2x16x2048, .f32⟩
  | .hbm, ⟨13, _⟩ => ⟨S_, .f32⟩
  | .hbm, ⟨14, _⟩ => ⟨S2x16x2048, .f32⟩
  | .hbm, ⟨15, _⟩ => ⟨S2x16x2048, .f32⟩
  | .hbm, ⟨16, _⟩ => ⟨S2x16x2048x1, .f32⟩
  | .hbm, ⟨17, _⟩ => ⟨S2x16x2048x2048, .f32⟩
  | .hbm, ⟨18, _⟩ => ⟨S2x16x2048x2048, .f32⟩
  | .hbm, ⟨19, _⟩ => ⟨S2x16x2048x2048, .f32⟩
  | .hbm, ⟨20, _⟩ => ⟨S_, .f32⟩
  | .hbm, ⟨21, _⟩ => ⟨S2x16x2048, .f32⟩
  | .hbm, ⟨22, _⟩ => ⟨S2x16x2048x1, .f32⟩
  | .hbm, ⟨23, _⟩ => ⟨S2x16x2048x2048, .f32⟩
  | .hbm, ⟨24, _⟩ => ⟨S2x16x2048x2048, .f32⟩
  | .hbm, ⟨25, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.AttnSpec.lean ====
/-
  Masked softmax attention over arrays of shape [2, 16, 2048, 64] (queries Q, keys K, values V) and a mask of shape
  [2, 16, 2048, 2048], on the extended reals, written index by index.

  For a batch b, a head h and a query row q:
    * the score of key k is the filler -1e9 where the mask bit is set, and (sum over d of Q(b,h,q,d) * K(b,h,k,d)) / 8 elsewhere;
    * the row maximum is the maximum of the 2048 scores of the row, starting from -infinity;
    * the weight of key k is exp (score - row maximum), the denominator is the sum of the row's weights;
    * the attention entry is weight / denominator, and the context entry at d is the sum over k of attention(q,k) * V(b,h,k,d).

  Also here: the two bit patterns that have to be read as numbers (1/8 and -infinity), the passage of a finite sum
  through the embedding of the reals, and the one algebraic law between the two programs: a real factor applied to each
  left factor of a sum of products of reals may be applied to the sum instead.
-/
import Idealize.ShloMosaic.PureOps.Ideal
import Idealize.ShloMosaic.Lib.ValueIdx

noncomputable section

namespace Cert.Attn

open Idealize.ShloMosaic Idealize.ShloMosaic.ValueIdx

/-- The shape of Q, K, V and of the context. -/
abbrev SQ : Shape := ⟨4, ![2, 16, 2048, 64]⟩
/-- The shape of the mask and of the attention matrix. -/
abbrev SA : Shape := ⟨4, ![2, 16, 2048, 2048]⟩

/-- The pattern 0x3E000000 denotes 1/8. -/
theorem ofBits_eighth : Ideal.ofBits .f32 0x3E000000#32 = ((1 / 8 : ℝ) : EReal) := by
  simp [Ideal.ofBits, Ideal.ieee, -EReal.coe_mul]; norm_num

/-- The pattern 0xFF800000 denotes -infinity, the least extended real. -/
theorem ofBits_neg_inf : Ideal.ofBits .f32 0xFF800000#32 = (⊥ : EReal) := by
  simp [Ideal.ofBits, Ideal.ieee]

/-- The masked, scaled score of key `k` for query row `q`. -/
def score (Q K : SQ.Idx → EReal) (M : SA.Idx → BitVec 1) (b : Fin 2) (h : Fin 16) (q k : Fin 2048) : EReal :=
  Scalar.select (M (ix4 b h q k)) (Ideal.ofBits .f32 0xCE6E6B28#32)
    ((∑ d : Fin 64, Q (ix4 b h q d) * K (ix4 b h k d)) * Ideal.ofBits .f32 0x3E000000#32)

/-- The maximum of a row's scores, from -infinity. -/
def rowMax (Q K : SQ.Idx → EReal) (M : SA.Idx → BitVec 1) (b : Fin 2) (h : Fin 16) (q : Fin 2048) : EReal :=
  (Finset.univ : Finset (Fin 2048)).fold max (Ideal.ofBits .f32 0xFF800000#32) (fun k => score Q K M b h q k)

/-- The unnormalised softmax weight. -/
def weight (Q K : SQ.Idx → EReal) (M : SA.Idx → BitVec 1) (b : Fin 2) (h : Fin 16) (q k : Fin 2048) : EReal :=
  Ideal.exp (score Q K M b h q k - rowMax Q K M b h q)

/-- The sum of a row's weights. -/
def denom (Q K : SQ.Idx → EReal) (M : SA.Idx → BitVec 1) (b : Fin 2) (h : Fin 16) (q : Fin 2048) : EReal :=
  ∑ k : Fin 2048, weight Q K M b h q k

/-- The attention entry: weight over the row's sum of weights. -/
def attn (Q K : SQ.Idx → EReal) (M : SA.Idx → BitVec 1) (b : Fin 2) (h : Fin 16) (q k : Fin 2048) : EReal :=
  Ideal.div (weight Q K M b h q k) (denom Q K M b h q)

/-- The context entry: the attention row against a column of V. -/
def ctx (Q K V : SQ.Idx → EReal) (M : SA.Idx → BitVec 1) (b : Fin 2) (h : Fin 16) (q : Fin 2048) (d : Fin 64) : EReal :=
  ∑ k : Fin 2048, attn Q K M b h q k * V (ix4 b h k d)

/-- The attention matrix as one array. -/
def attnArr (Q K : SQ.Idx → EReal) (M : SA.Idx → BitVec 1) : SA.Idx → EReal :=
  fun i => attn Q K M (i 0) (i 1) (i 2) (i 3)

/-- The context as one array. -/
def ctxArr (Q K V : SQ.Idx → EReal) (M : SA.Idx → BitVec 1) : SQ.Idx → EReal :=
  fun i => ctx Q K V M (i 0) (i 1) (i 2) (i 3)

/-- The embedding of the reals into the extended reals passes through a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor on each left factor of a sum of products of reals is a factor on the sum: with every `x d`, `y d` real,
    the sum over d of (x d * c) * y d is (the sum over d of x d * y d) * c. (With an infinite entry the two sides may differ.) -/
theorem sum_scale_left {n : ℕ} (x y : Fin n → EReal) (c : ℝ) (hx : ∀ d, ∃ r : ℝ, x d = (r : EReal))
    (hy : ∀ d, ∃ r : ℝ, y d = (r : EReal)) :
    ∑ d : Fin n, (x d * (c : EReal)) * y d = (∑ d : Fin n, x d * y d) * (c : EReal) := by
  choose xr hxr using hx
  choose yr hyr using hy
  have e1 : ∀ d, (x d * (c : EReal)) * y d = ((xr d * c * yr d : ℝ) : EReal) := fun d => by
    rw [hxr d, hyr d, ← EReal.coe_mul, ← EReal.coe_mul]
  have e2 : ∀ d, x d * y d = ((xr d * yr d : ℝ) : EReal) := fun d => by
    rw [hxr d, hyr d, ← EReal.coe_mul]
  rw [Finset.sum_congr rfl (fun d _ => e1 d), Finset.sum_congr rfl (fun d _ => e2 d), ← coe_sum, ← coe_sum,
    ← EReal.coe_mul]
  refine congrArg _ ?_
  rw [Finset.sum_mul]
  exact Finset.sum_congr rfl (fun d _ => by ring)

end Cert.Attn

end
-- ==== Proof.LibColumns.lean ====
/-
  Column vectors read at coordinates: the three layout steps of a "keepdims" row reduction.

  A reduction over the last axis of an `[a, n]` array gives a vector `[a]`; kept as a COLUMN it is cast to `[a, 1]`,
  and a column is then either broadcast along a new second axis to `[a, b]` (every entry of row `p` is the column's
  entry `p`) or transposed to the row `[1, a]`. Each lemma reads one of these at an index written with coordinates.
-/
import Idealize.ShloMosaic.Lib.Pipeline.Value
import Idealize.ShloMosaic.Lib.ValueIdx
import Idealize.ShloMosaic.Lib.ValueLayout

namespace Cert.Lib.Columns

open Idealize.ShloMosaic Idealize.ShloMosaic.ValueIdx

variable {α : Type}

/-- A vector `[a]` cast to the column `[a, 1]` reads, at `(p, z)`, the vector at `p`, whatever the unit coordinate `z`:
    both indices have row-major position `p`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` transposed to the row `[1, a]` reads, at `(z, p)`, the column's entry `p`. -/
theorem transpose_a1_1a_apply {a : ℕ} (x : (⟨2, ![a, 1]⟩ : Shape).Idx → α)
    (h : (⟨2, ![a, 1]⟩ : Shape).Transposes [1, 0] ⟨2, ![1, a]⟩) (z : Fin 1) (p : Fin a) :
    transpose ⟨2, ![1, a]⟩ [1, 0] x h (ix2 z p) = x (ix2 p z) :=
  transpose_ix2_apply x h z p

end Cert.Lib.Columns
-- ==== Proof.LibPlainDot.lean ====
/-
  A matrix product into a zero accumulator, read at coordinates.

  For a dot of a `[M, K]` matrix with a `[K, N]` matrix whose dimension numbers contract the left operand's second axis with
  the right operand's first and keep the other two in order, the product accumulated into the zero splat is, at `(p, c)`,

      ∑ k : Fin K, l (p, k) · r (k, c)

  on the extended reals. The dimension record enters only through four facts about its operand indices — the left index at
  output index `i` and contraction position `q` is `(i 0, q)`, the right one `(q, i 1)` — which a concrete record proves by
  unfolding; with them the sum over the record's one-axis contraction shape is re-indexed over `Fin K`.
-/
import Idealize.ShloMosaic.PureOps.Ideal.Laws
import Idealize.ShloMosaic.Lib.ValueIdx

namespace Cert.Lib.PlainDot

open Idealize.ShloMosaic Idealize.ShloMosaic.ValueIdx

/-- The product of an `[M, K]` and a `[K, N]` matrix into the zero splat at `(p, c)`: the sum over `k` of `l (p, k) · r (k, c)`. -/
theorem matmul_zero_ix2 {M K N : ℕ} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (i (0 : Fin 2)).val)
    (hl1 : ∀ (i : (⟨2, ![M, N]⟩ : Shape).Idx) (q : D.contr.Idx), (D.lhsIdx i q (1 : Fin 2)).val = (q ⟨0, by omega⟩).val)
    (hr0 : ∀ (i : (⟨2, ![M, N]⟩ : Shape).Idx) (q : D.contr.Idx), (D.rhsIdx i q (0 : Fin 2)).val = (q ⟨0, by omega⟩).val)
    (hr1 : ∀ (i : (⟨2, ![M, N]⟩ : Shape).Idx) (q : D.contr.Idx), (D.rhsIdx i q (1 : Fin 2)).val = (i (1 : Fin 2)).val)
    (prec : Option ContractPrecision) (l : FVec Ideal ⟨2, ![M, K]⟩ φ₁) (r : FVec Ideal ⟨2, ![K, N]⟩ φ₂) (p : Fin M) (c : Fin N) :
    FloatOps.matmul D prec l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.Lib.PlainDot
-- ==== Proof.LibTransDot.lean ====
/-
  A matrix product with the right operand given by rows, into a zero accumulator, read at coordinates.

  For a dot of a `[M, K]` matrix with a `[N, K]` matrix whose dimension numbers contract the second axis of both operands
  and keep the first axes in order (the product of the left matrix with the transpose of the right one), the product
  accumulated into the zero splat is, at `(p, c)`,

      ∑ k : Fin K, l (p, k) · r (c, k)

  on the extended reals. The dimension record enters only through four facts about its operand indices — the left index at
  output index `i` and contraction position `q` is `(i 0, q)`, the right one `(i 1, q)` — which a concrete record proves by
  unfolding; with them the sum over the record's one-axis contraction shape is re-indexed over `Fin K`.
-/
import Idealize.ShloMosaic.PureOps.Ideal.Laws
import Idealize.ShloMosaic.Lib.ValueIdx

namespace Cert.Lib.TransDot

open Idealize.ShloMosaic Idealize.ShloMosaic.ValueIdx

/-- The product of an `[M, K]` matrix with the transpose of an `[N, K]` matrix into the zero splat at `(p, c)`: the sum
    over `k` of `l (p, k) · r (c, k)`. -/
theorem matmul_zero_ix2_nt {M K N : ℕ} {φ₁ φ₂ : FTy}
    (D : DotDims ⟨2, ![M, K]⟩ ⟨2, ![N, K]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (i (0 : Fin 2)).val)
    (hl1 : ∀ (i : (⟨2, ![M, N]⟩ : Shape).Idx) (q : D.contr.Idx), (D.lhsIdx i q (1 : Fin 2)).val = (q ⟨0, by omega⟩).val)
    (hr0 : ∀ (i : (⟨2, ![M, N]⟩ : Shape).Idx) (q : D.contr.Idx), (D.rhsIdx i q (0 : Fin 2)).val = (i (1 : Fin 2)).val)
    (hr1 : ∀ (i : (⟨2, ![M, N]⟩ : Shape).Idx) (q : D.contr.Idx), (D.rhsIdx i q (1 : Fin 2)).val = (q ⟨0, by omega⟩).val)
    (prec : Option ContractPrecision) (l : FVec Ideal ⟨2, ![M, K]⟩ φ₁) (r : FVec Ideal ⟨2, ![N, K]⟩ φ₂) (p : Fin M) (c : Fin N) :
    FloatOps.matmul D prec l r (constant (F := Ideal) ⟨2, ![M, N]⟩ .f32 0x00000000#32) (ix2 p c)
      = ∑ k : Fin K, l (ix2 p k) * r (ix2 c k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 c k := funext fun a => Fin.ext (by
    match a with
    | ⟨0, _⟩ => exact hr0 _ _
    | ⟨1, _⟩ => exact (hr1 _ _).trans hk)
  rw [el, er]

end Cert.Lib.TransDot
-- ==== Proof.LibUnitAxes.lean ====
/-
  Two leading unit axes dropped or added by a shape cast, read at coordinates.

  An array of shape `[1, 1, a, b]` and an array of shape `[a, b]` have the same entries in the same row-major order:
  position `((0 * 1 + 0) * a + i) * b + j = i * b + j`. So a cast between the two reads, at `(i, j)` (or at
  `(u, v, i, j)` with unit coordinates `u`, `v`), the operand's entry at the same `i`, `j`.
-/
import Idealize.ShloMosaic.Lib.Pipeline.Value
import Idealize.ShloMosaic.Lib.ValueIdx

namespace Cert.Lib.UnitAxes

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    rw [Nat.zero_mul, Nat.zero_add])

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv, Nat.zero_mul, Nat.zero_add])

end Cert.Lib.UnitAxes
-- ==== Proof.AttnKernel.lean ====
/-
  What the kernel computes in one block of 512 query rows, read at an index.

  The body works on a block `x0` of 512 rows of Q, the whole K and V of one (batch, head) as blocks `x1`, `x2`, and the
  block `x3` of the mask widened to 32-bit words. It multiplies each query entry by 1/8, contracts the scaled queries
  with the keys (both rounded to a narrower format, which changes nothing on the extended reals), replaces the entries
  whose mask word is non-zero by the filler, takes each row's maximum from -infinity, the exponentials of the
  differences, their row sums, the quotients, and finally contracts the quotients with V.

  If the blocks hold the entries of Q, K, V and the mask at batch `b`, head `h` and rows `row p`, and Q and K are real,
  these are the specification's score, row maximum, weight, denominator, attention entry and context entry. The only
  step that is not the same operation on both sides is the factor 1/8: the kernel applies it to every query entry before
  the contraction, the specification to the contracted sum; for real entries the two agree.
-/
import proofs.«158610_j7584912245195_2_alg».proof.Proof.Gen.KernelIdeal.Skeleton
import proofs.«158610_j7584912245195_2_alg».proof.Proof.AttnSpec
import proofs.«158610_j7584912245195_2_alg».proof.Proof.LibColumns
import proofs.«158610_j7584912245195_2_alg».proof.Proof.LibPlainDot
import proofs.«158610_j7584912245195_2_alg».proof.Proof.LibTransDot
import proofs.«158610_j7584912245195_2_alg».proof.Proof.LibUnitAxes
import Idealize.ShloMosaic.PureOps.Ideal.Laws
import Idealize.ShloMosaic.Lib.Pipeline.Value
import Idealize.ShloMosaic.Lib.ValueIdx

noncomputable section

namespace Cert.Attn.Ker

open Cert.KernelIdeal Cert.KernelIdeal.Gen Idealize.ShloMosaic Idealize.ShloMosaic.ValueIdx Cert.Attn

/-! ## The two contractions' operand indices -/

theorem qk_l0 (i : S512x2048.Idx) (q : dot_S512x64_S2048x64_S512x2048_1_1_0_0_n_n.contr.Idx) :
    (dot_S512x64_S2048x64_S512x2048_1_1_0_0_n_n.lhsIdx i q (0 : Fin 2)).val = (i (0 : Fin 2)).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl

theorem qk_l1 (i : S512x2048.Idx) (q : dot_S512x64_S2048x64_S512x2048_1_1_0_0_n_n.contr.Idx) :
    (dot_S512x64_S2048x64_S512x2048_1_1_0_0_n_n.lhsIdx i q (1 : Fin 2)).val = (q ⟨0, by decide⟩).val :=
  dot_S512x64_S2048x64_S512x2048_1_1_0_0_n_n.lhsIdx_val_of_single rfl i q

theorem qk_r0 (i : S512x2048.Idx) (q : dot_S512x64_S2048x64_S512x2048_1_1_0_0_n_n.contr.Idx) :
    (dot_S512x64_S2048x64_S512x2048_1_1_0_0_n_n.rhsIdx i q (0 : Fin 2)).val = (i (1 : Fin 2)).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl

theorem qk_r1 (i : S512x2048.Idx) (q : dot_S512x64_S2048x64_S512x2048_1_1_0_0_n_n.contr.Idx) :
    (dot_S512x64_S2048x64_S512x2048_1_1_0_0_n_n.rhsIdx i q (1 : Fin 2)).val = (q ⟨0, by decide⟩).val :=
  dot_S512x64_S2048x64_S512x2048_1_1_0_0_n_n.rhsIdx_val_of_single rfl i q

theorem av_l0 (i : S512x64.Idx) (q : dot_S512x2048_S2048x64_S512x64_1_0_0_1_n_n.contr.Idx) :
    (dot_S512x2048_S2048x64_S512x64_1_0_0_1_n_n.lhsIdx i q (0 : Fin 2)).val = (i (0 : Fin 2)).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl

theorem av_l1 (i : S512x64.Idx) (q : dot_S512x2048_S2048x64_S512x64_1_0_0_1_n_n.contr.Idx) :
    (dot_S512x2048_S2048x64_S512x64_1_0_0_1_n_n.lhsIdx i q (1 : Fin 2)).val = (q ⟨0, by decide⟩).val :=
  dot_S512x2048_S2048x64_S512x64_1_0_0_1_n_n.lhsIdx_val_of_single rfl i q

theorem av_r0 (i : S512x64.Idx) (q : dot_S512x2048_S2048x64_S512x64_1_0_0_1_n_n.contr.Idx) :
    (dot_S512x2048_S2048x64_S512x64_1_0_0_1_n_n.rhsIdx i q (0 : Fin 2)).val = (q ⟨0, by decide⟩).val :=
  dot_S512x2048_S2048x64_S512x64_1_0_0_1_n_n.rhsIdx_val_of_single rfl i q

theorem av_r1 (i : S512x64.Idx) (q : dot_S512x2048_S2048x64_S512x64_1_0_0_1_n_n.contr.Idx) :
    (dot_S512x2048_S2048x64_S512x64_1_0_0_1_n_n.rhsIdx i q (1 : Fin 2)).val = (i (1 : Fin 2)).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-! ## The body's stages, named -/

variable (x0 : Vec Ideal S1x1x512x64 .f32) (x1 x2 : Vec Ideal S1x1x2048x64 .f32) (x3 : Vec Ideal S1x1x512x2048 .i32)

/-- The query block, every entry times 1/8. -/
def kQuery : FVec Ideal S512x64 .bf16 :=
  truncf .bf16 (mulf (shapeCast S512x64 x0 shapeCasts_S1x1x512x64_S512x64)
    (broadcast S512x64 (Scalar.ofBits (F := Ideal) .f32 0x3E000000#32))) bitsLt_bf16_f32

/-- The key block. -/
def kKey : FVec Ideal S2048x64 .bf16 :=
  truncf .bf16 (shapeCast S2048x64 x1 shapeCasts_S1x1x2048x64_S2048x64) bitsLt_bf16_f32

/-- The mask bits: a word is non-zero. -/
def kMask : IVec S512x2048 1 :=
  cmpi .ne (shapeCast S512x2048 x3 shapeCasts_S1x1x512x2048_S512x2048) (constantI S512x2048 32 0#32)

/-- The masked scores of the block. -/
def kScore : FVec Ideal S512x2048 .f32 :=
  select (kMask x3) (broadcast S512x2048 (Scalar.ofBits (F := Ideal) .f32 0xCE6E6B28#32))
    (matmul dot_S512x64_S2048x64_S512x2048_1_1_0_0_n_n none (kQuery x0) (kKey x1) (constant (F := Ideal) S512x2048 .f32 0x00000000#32))

/-- Each row's maximum. -/
def kMax : FVec Ideal S512 .f32 :=
  multiReduction .maximumf [1] S512 (kScore x0 x1 x3) 0xFF800000#32 reduces_S512x2048_S512 (.inl rfl) rfl

/-- The exponentials of the scores less their row's maximum. -/
def kWeight : FVec Ideal S512x2048 .f32 :=
  exp (subf (kScore x0 x1 x3)
    (broadcastTo S512x2048 (shapeCast S512x1 (kMax x0 x1 x3) shapeCasts_S512_S512x1) broadcasts_S512x1_S512x2048))

/-- Each row's sum of weights. -/
def kDenom : FVec Ideal S512 .f32 :=
  multiReduction .add [1] S512 (kWeight x0 x1 x3) 0x00000000#32 reduces_S512x2048_S512 (.inl rfl) rfl

/-- The body's attention payload is the quotient of the weights by their row sums. -/
theorem pay3_eq : k0_pay3 (F := Ideal) x0 x1 x3
    = divf (kWeight x0 x1 x3)
        (broadcastTo S512x2048 (shapeCast S512x1 (kDenom x0 x1 x3) shapeCasts_S512_S512x1) broadcasts_S512x1_S512x2048) := rfl

/-- The body's context payload is the attention payload contracted with the value block, under two unit axes. -/
theorem pay1_eq : k0_pay1 (F := Ideal) (k0_pay2 x2) (k0_pay5 x0 x1 x3)
    = shapeCast S1x1x512x64
        (matmul dot_S512x2048_S2048x64_S512x64_1_0_0_1_n_n none
          (truncf .bf16 (k0_pay3 (F := Ideal) x0 x1 x3) bitsLt_bf16_f32 : FVec Ideal S512x2048 .bf16)
          (truncf .bf16 (shapeCast S2048x64 x2 shapeCasts_S1x1x2048x64_S2048x64) bitsLt_bf16_f32 : FVec Ideal S2048x64 .bf16)
          (constant (F := Ideal) S512x64 .f32 0x00000000#32))
        shapeCasts_S512x64_S1x1x512x64 := rfl

/-! ## The stages at an index, for blocks that hold rows of Q, K, V and the mask -/

section AtIndex

variable (Q K V : SQ.Idx → EReal) (M : SA.Idx → BitVec 1) (b : Fin 2) (h : Fin 16) (row : Fin 512 → Fin 2048)

/-- A one-bit word, widened to 32 bits, is non-zero exactly when the bit is set. -/
theorem ne_zero_setWidth (w : BitVec 1) : IntOp.cmpi .ne (w.setWidth 32) (0#32) = w := by
  rcases BitVec.eq_zero_or_eq_one w with e | e <;> subst e <;> decide

/-- Inserting `k` on the second axis of the row index `p` gives `(p, k)`. -/
theorem lift1 (hR : S512x2048.Reduces [1] S512) (p : Fin 512) (k : Fin 2048) : hR.lift (ix1 p) k = ix2 p k :=
  funext fun a => Fin.ext (by match a with | ⟨0, _⟩ => rfl | ⟨1, _⟩ => rfl)

/-- The mask bit of the block is the mask's bit. -/
theorem kMask_at (h3 : ∀ (p : Fin 512) (k : Fin 2048), x3 (ix4 0 0 p k) = (M (ix4 b h (row p) k)).setWidth 32)
    (p : Fin 512) (k : Fin 2048) : kMask x3 (ix2 p k) = M (ix4 b h (row p) k) := by
  show IntOp.cmpi .ne (shapeCast S512x2048 x3 shapeCasts_S1x1x512x2048_S512x2048 (ix2 p k)) (0#32) = _
  rw [Cert.Lib.UnitAxes.shapeCast_11ab_ab_apply x3 _ p k, h3 p k]
  exact ne_zero_setWidth _

/-- A scaled query entry. -/
theorem kQuery_at (h0 : ∀ (p : Fin 512) (d : Fin 64), x0 (ix4 0 0 p d) = Q (ix4 b h (row p) d))
    (p : Fin 512) (d : Fin 64) : kQuery x0 (ix2 p d) = Q (ix4 b h (row p) d) * ((1 / 8 : ℝ) : EReal) := by
  show shapeCast S512x64 x0 shapeCasts_S1x1x512x64_S512x64 (ix2 p d) * Ideal.ofBits .f32 0x3E000000#32 = _
  rw [Cert.Lib.UnitAxes.shapeCast_11ab_ab_apply x0 _ p d, h0 p d, ofBits_eighth]

/-- A key entry. -/
theorem kKey_at (h1 : ∀ (k : Fin 2048) (d : Fin 64), x1 (ix4 0 0 k d) = K (ix4 b h k d))
    (k : Fin 2048) (d : Fin 64) : kKey x1 (ix2 k d) = K (ix4 b h k d) := by
  show shapeCast S2048x64 x1 shapeCasts_S1x1x2048x64_S2048x64 (ix2 k d) = _
  rw [Cert.Lib.UnitAxes.shapeCast_11ab_ab_apply x1 _ k d, h1 k d]

/-- The block's masked score is the specification's: here the factor 1/8 moves from the query entries to the sum, which
    needs the entries of Q and K real. -/
theorem kScore_at (h0 : ∀ (p : Fin 512) (d : Fin 64), x0 (ix4 0 0 p d) = Q (ix4 b h (row p) d))
    (h1 : ∀ (k : Fin 2048) (d : Fin 64), x1 (ix4 0 0 k d) = K (ix4 b h k d))
    (h3 : ∀ (p : Fin 512) (k : Fin 2048), x3 (ix4 0 0 p k) = (M (ix4 b h (row p) k)).setWidth 32)
    (hQ : ∀ i, ∃ r : ℝ, Q i = (r : EReal)) (hK : ∀ i, ∃ r : ℝ, K i = (r : EReal))
    (p : Fin 512) (k : Fin 2048) : kScore x0 x1 x3 (ix2 p k) = score Q K M b h (row p) k := by
  have hmm : matmul dot_S512x64_S2048x64_S512x2048_1_1_0_0_n_n none (kQuery x0) (kKey x1)
      (constant (F := Ideal) S512x2048 .f32 0x00000000#32) (ix2 p k)
      = ∑ d : Fin 64, kQuery x0 (ix2 p d) * kKey x1 (ix2 k d) :=
    Cert.Lib.TransDot.matmul_zero_ix2_nt dot_S512x64_S2048x64_S512x2048_1_1_0_0_n_n rfl rfl qk_l0 qk_l1 qk_r0 qk_r1 none
      (kQuery x0) (kKey x1) p k
  show Scalar.select (kMask x3 (ix2 p k)) (Ideal.ofBits .f32 0xCE6E6B28#32)
      (matmul dot_S512x64_S2048x64_S512x2048_1_1_0_0_n_n none (kQuery x0) (kKey x1)
        (constant (F := Ideal) S512x2048 .f32 0x00000000#32) (ix2 p k)) = _
  rw [kMask_at x3 M b h row h3 p k, hmm]
  unfold score
  refine congrArg (Scalar.select _ _) ?_
  rw [Finset.sum_congr rfl (fun d _ => by rw [kQuery_at x0 Q b h row h0 p d, kKey_at x1 K b h h1 k d]), ofBits_eighth]
  exact sum_scale_left (fun d => Q (ix4 b h (row p) d)) (fun d => K (ix4 b h k d)) (1 / 8) (fun d => hQ _) (fun d => hK _)

/-- The row maximum of the block is the specification's. -/
theorem kMax_at (hS : ∀ (p : Fin 512) (k : Fin 2048), kScore x0 x1 x3 (ix2 p k) = score Q K M b h (row p) k)
    (p : Fin 512) : kMax x0 x1 x3 (ix1 p) = rowMax Q K M b h (row p) := by
  have hacc : (0xFF800000#32 : BitVec 32) = FKind.maximumf.neutral .f32 (.inl rfl) := rfl
  refine (Ideal.multiReduction_maximumf_single (kScore x0 x1 x3) 0xFF800000#32 reduces_S512x2048_S512 (.inl rfl) hacc
    (ix1 p)).trans ?_
  have hf : (kScore x0 x1 x3 ∘ reduces_S512x2048_S512.lift (ix1 p)) = fun k => score Q K M b h (row p) k :=
    funext fun k => (congrArg (kScore x0 x1 x3) (lift1 reduces_S512x2048_S512 p k)).trans (hS p k)
  exact congrArg (fun f => (Finset.univ : Finset (Fin 2048)).fold max (Ideal.ofBits .f32 0xFF800000#32) f) hf

/-- A weight of the block is the specification's. -/
theorem kWeight_at (hS : ∀ (p : Fin 512) (k : Fin 2048), kScore x0 x1 x3 (ix2 p k) = score Q K M b h (row p) k)
    (p : Fin 512) (k : Fin 2048) : kWeight x0 x1 x3 (ix2 p k) = weight Q K M b h (row p) k := by
  have hb : broadcastTo S512x2048 (shapeCast S512x1 (kMax x0 x1 x3) shapeCasts_S512_S512x1) broadcasts_S512x1_S512x2048 (ix2 p k)
      = rowMax Q K M b h (row p) :=
    (Cert.Lib.Columns.broadcastTo_a1_ab_apply _ broadcasts_S512x1_S512x2048 p k).trans
      ((Cert.Lib.Columns.shapeCast_a_a1_apply (kMax x0 x1 x3) shapeCasts_S512_S512x1 p 0).trans
        (kMax_at x0 x1 x3 Q K M b h row hS p))
  show Ideal.exp (kScore x0 x1 x3 (ix2 p k)
      - broadcastTo S512x2048 (shapeCast S512x1 (kMax x0 x1 x3) shapeCasts_S512_S512x1) broadcasts_S512x1_S512x2048 (ix2 p k)) = _
  rw [hb, hS p k]
  rfl

/-- The row sum of weights of the block is the specification's denominator. -/
theorem kDenom_at (hS : ∀ (p : Fin 512) (k : Fin 2048), kScore x0 x1 x3 (ix2 p k) = score Q K M b h (row p) k)
    (p : Fin 512) : kDenom x0 x1 x3 (ix1 p) = denom Q K M b h (row p) := by
  have hacc : (0x00000000#32 : BitVec 32) = FKind.add.neutral .f32 (.inl rfl) := rfl
  refine (Ideal.multiReduction_add_single (kWeight x0 x1 x3) 0x00000000#32 reduces_S512x2048_S512 (.inl rfl) hacc
    (ix1 p)).trans ?_
  exact Finset.sum_congr rfl fun k _ =>
    (congrArg (kWeight x0 x1 x3) (lift1 reduces_S512x2048_S512 p k)).trans (kWeight_at x0 x1 x3 Q K M b h row hS p k)

/-- The attention payload of the block is the specification's attention entry. -/
theorem pay3_at (hS : ∀ (p : Fin 512) (k : Fin 2048), kScore x0 x1 x3 (ix2 p k) = score Q K M b h (row p) k)
    (p : Fin 512) (k : Fin 2048) : k0_pay3 (F := Ideal) x0 x1 x3 (ix2 p k) = attn Q K M b h (row p) k := by
  have hb : broadcastTo S512x2048 (shapeCast S512x1 (kDenom x0 x1 x3) shapeCasts_S512_S512x1) broadcasts_S512x1_S512x2048 (ix2 p k)
      = denom Q K M b h (row p) :=
    (Cert.Lib.Columns.broadcastTo_a1_ab_apply _ broadcasts_S512x1_S512x2048 p k).trans
      ((Cert.Lib.Columns.shapeCast_a_a1_apply (kDenom x0 x1 x3) shapeCasts_S512_S512x1 p 0).trans
        (kDenom_at x0 x1 x3 Q K M b h row hS p))
  rw [pay3_eq]
  show Ideal.div (kWeight x0 x1 x3 (ix2 p k))
      (broadcastTo S512x2048 (shapeCast S512x1 (kDenom x0 x1 x3) shapeCasts_S512_S512x1) broadcasts_S512x1_S512x2048 (ix2 p k)) = _
  rw [hb, kWeight_at x0 x1 x3 Q K M b h row hS p k]
  rfl

/-- The context payload of the block is the specification's context entry. -/
theorem pay1_at (hS : ∀ (p : Fin 512) (k : Fin 2048), kScore x0 x1 x3 (ix2 p k) = score Q K M b h (row p) k)
    (h2 : ∀ (k : Fin 2048) (d : Fin 64), x2 (ix4 0 0 k d) = V (ix4 b h k d))
    (u v : Fin 1) (p : Fin 512) (d : Fin 64) :
    k0_pay1 (F := Ideal) (k0_pay2 x2) (k0_pay5 x0 x1 x3) (ix4 u v p d) = ctx Q K V M b h (row p) d := by
  rw [pay1_eq]
  refine (Cert.Lib.UnitAxes.shapeCast_ab_11ab_apply _ shapeCasts_S512x64_S1x1x512x64 u v p d).trans ?_
  refine (Cert.Lib.PlainDot.matmul_zero_ix2 dot_S512x2048_S2048x64_S512x64_1_0_0_1_n_n rfl rfl av_l0 av_l1 av_r0 av_r1 none
    _ _ p d).trans ?_
  unfold ctx
  refine Finset.sum_congr rfl fun k _ => ?_
  show k0_pay3 (F := Ideal) x0 x1 x3 (ix2 p k) * shapeCast S2048x64 x2 shapeCasts_S1x1x2048x64_S2048x64 (ix2 k d) = _
  rw [pay3_at x0 x1 x3 Q K M b h row hS p k, Cert.Lib.UnitAxes.shapeCast_11ab_ab_apply x2 _ k d, h2 k d]

end AtIndex

end Cert.Attn.Ker

end
-- ==== Proof.AttnBlocks.lean ====
/-
  From blocks to arrays: after the run the kernel's two result arrays are the specification's attention and context.

  The grid has 2 * 16 * 4 points; point t = (b, h, j) works on batch b, head h and the query rows 512 j .. 512 j + 511.
  Its query, mask, context and attention blocks sit at block index (b, h, j, 0) of their arrays, its key and value blocks
  at (b, h, 0, 0). An element of a block sits in its array, on each axis, at block index times block size plus its own
  coordinate; so the blocks the body reads hold exactly the rows of Q, K, V and the mask that the specification's entries
  at (b, h, 512 j + p, ·) use, and what the point writes back is a block of the specification's arrays. The mask reaches
  the kernel widened to 32-bit words by one host operation before the region. The 128 blocks of each result tile its
  array (the block of row q is the one with j = q / 512), so the arrays end holding the specification's.
-/
import proofs.«158610_j7584912245195_2_alg».proof.Proof.Gen.KernelIdeal.Value
import proofs.«158610_j7584912245195_2_alg».proof.Proof.AttnKernel
import Idealize.ShloMosaic.Lib.Pipeline.Value
import Idealize.ShloMosaic.Lib.StableHlo.Run

set_option maxRecDepth 16384

noncomputable section

namespace Cert.Attn.Blocks

open Cert.KernelIdeal Cert.KernelIdeal.Gen Idealize.ShloMosaic Idealize.ShloMosaic.TcCoe Idealize.SL.Sem
  Idealize.ShloMosaic.ValueIdx Cert.Attn
open Idealize.ShloMosaic.Pipeline (Dat)

variable (m : (ℓ : Loc nD τ sig) → Buf (Elt Ideal) ℓ) (ρ : Dev nD → PrngReg)

theorem hz : (![0, 0, 0, 0] : Fin 4 → Nat) = fun _ => 0 := funext fun a => by fin_cases a <;> rfl

/-! ## The block indices, decided over the grid -/

theorem idx5 : ∀ t : Fin cfg0.N, win0_5.index t (0 : Fin 4) < 2 ∧ win0_5.index t (1 : Fin 4) < 16
    ∧ win0_5.index t (2 : Fin 4) < 4 ∧ win0_5.index t (3 : Fin 4) = 0 :=
  (by decide +kernel : ∀ t : Fin grid0.N, _)

theorem idx4 : ∀ t : Fin cfg0.N, win0_4.index t (0 : Fin 4) = win0_5.index t (0 : Fin 4)
    ∧ win0_4.index t (1 : Fin 4) = win0_5.index t (1 : Fin 4) ∧ win0_4.index t (2 : Fin 4) = win0_5.index t (2 : Fin 4)
    ∧ win0_4.index t (3 : Fin 4) = 0 :=
  (by decide +kernel : ∀ t : Fin grid0.N, _)

theorem idx0 : ∀ t : Fin cfg0.N, win0_0.index t (0 : Fin 4) = win0_5.index t (0 : Fin 4)
    ∧ win0_0.index t (1 : Fin 4) = win0_5.index t (1 : Fin 4) ∧ win0_0.index t (2 : Fin 4) = win0_5.index t (2 : Fin 4)
    ∧ win0_0.index t (3 : Fin 4) = 0 :=
  (by decide +kernel : ∀ t : Fin grid0.N, _)

theorem idx3 : ∀ t : Fin cfg0.N, win0_3.index t (0 : Fin 4) = win0_5.index t (0 : Fin 4)
    ∧ win0_3.index t (1 : Fin 4) = win0_5.index t (1 : Fin 4) ∧ win0_3.index t (2 : Fin 4) = win0_5.index t (2 : Fin 4)
    ∧ win0_3.index t (3 : Fin 4) = 0 :=
  (by decide +kernel : ∀ t : Fin grid0.N, _)

theorem idx1 : ∀ t : Fin cfg0.N, win0_1.index t (0 : Fin 4) = win0_5.index t (0 : Fin 4)
    ∧ win0_1.index t (1 : Fin 4) = win0_5.index t (1 : Fin 4) ∧ win0_1.index t (2 : Fin 4) = 0
    ∧ win0_1.index t (3 : Fin 4) = 0 :=
  (by decide +kernel : ∀ t : Fin grid0.N, _)

theorem idx2 : ∀ t : Fin cfg0.N, win0_2.index t (0 : Fin 4) = win0_5.index t (0 : Fin 4)
    ∧ win0_2.index t (1 : Fin 4) = win0_5.index t (1 : Fin 4) ∧ win0_2.index t (2 : Fin 4) = 0
    ∧ win0_2.index t (3 : Fin 4) = 0 :=
  (by decide +kernel : ∀ t : Fin grid0.N, _)

/-- Every (batch, head, row block) is some point's. -/
theorem onto5 : ∀ (q0 : Fin 2) (q1 : Fin 16) (q2 : Fin 4), ∃ t : Fin cfg0.N, win0_5.index t = ![q0.val, q1.val, q2.val, 0] :=
  (by decide +kernel : ∀ (q0 : Fin 2) (q1 : Fin 16) (q2 : Fin 4), ∃ t : Fin grid0.N, win0_5.index t = ![q0.val, q1.val, q2.val, 0])

/-- The batch of point `t`. -/
def bOf (t : Fin cfg0.N) : Fin 2 := ⟨win0_5.index t (0 : Fin 4), (idx5 t).1⟩
/-- The head of point `t`. -/
def hOf (t : Fin cfg0.N) : Fin 16 := ⟨win0_5.index t (1 : Fin 4), (idx5 t).2.1⟩
/-- The query row of the array that row `p` of point `t`'s block is. -/
def rowOf (t : Fin cfg0.N) (p : Fin 512) : Fin 2048 :=
  ⟨win0_5.index t (2 : Fin 4) * 512 + p.val, by have := (idx5 t).2.2.1; have := p.isLt; omega⟩

/-! ## The blocks the body reads -/

/-- The host operation before the region widens the mask's bits to 32-bit words. -/
theorem V_mask (c : Dev nD) :
    (V m c main_v0 : S2x16x2048x2048.Idx → BitVec 32) = extui 32 (m ((c : Thread nD τ).loc main_arg3)) natLt_1_32 := by
  dsimp only [V, hostOps0]; after_results

theorem blk0_at (c : Dev nD) (t : Fin cfg0.N) (u v : Fin 1) (p : Fin 512) (d : Fin 64) :
    iblk m c 0 t (ix4 u v p d) = (m ((c : Thread nD τ).loc main_arg0)) (ix4 (bOf t) (hOf t) (rowOf t p) d) := by
  obtain ⟨e0, e1, e2, e3⟩ := idx0 t
  rw [← V_main_arg0 m c]
  show V m c main_arg0 (((cfg0.win 0).blk t).view.emb (ix4 u v p d)) = V m c main_arg0 _
  refine congrArg (V m c main_arg0) (funext fun a => Fin.ext ?_)
  match a with
  | ⟨0, _⟩ => show win0_0.index t (0 : Fin 4) * 1 + 1 * u.val = win0_5.index t (0 : Fin 4); have := u.isLt; omega
  | ⟨1, _⟩ => show win0_0.index t (1 : Fin 4) * 1 + 1 * v.val = win0_5.index t (1 : Fin 4); have := v.isLt; omega
  | ⟨2, _⟩ => show win0_0.index t (2 : Fin 4) * 512 + 1 * p.val = win0_5.index t (2 : Fin 4) * 512 + p.val; omega
  | ⟨3, _⟩ => show win0_0.index t (3 : Fin 4) * 64 + 1 * d.val = d.val; omega

theorem blk1_at (c : Dev nD) (t : Fin cfg0.N) (u v : Fin 1) (k : Fin 2048) (d : Fin 64) :
    iblk m c 1 t (ix4 u v k d) = (m ((c : Thread nD τ).loc main_arg1)) (ix4 (bOf t) (hOf t) k d) := by
  obtain ⟨e0, e1, e2, e3⟩ := idx1 t
  rw [← V_main_arg1 m c]
  show V m c main_arg1 (((cfg0.win 1).blk t).view.emb (ix4 u v k d)) = V m c main_arg1 _
  refine congrArg (V m c main_arg1) (funext fun a => Fin.ext ?_)
  match a with
  | ⟨0, _⟩ => show win0_1.index t (0 : Fin 4) * 1 + 1 * u.val = win0_5.index t (0 : Fin 4); have := u.isLt; omega
  | ⟨1, _⟩ => show win0_1.index t (1 : Fin 4) * 1 + 1 * v.val = win0_5.index t (1 : Fin 4); have := v.isLt; omega
  | ⟨2, _⟩ => show win0_1.index t (2 : Fin 4) * 2048 + 1 * k.val = k.val; omega
  | ⟨3, _⟩ => show win0_1.index t (3 : Fin 4) * 64 + 1 * d.val = d.val; omega

theorem blk2_at (c : Dev nD) (t : Fin cfg0.N) (u v : Fin 1) (k : Fin 2048) (d : Fin 64) :
    iblk m c 2 t (ix4 u v k d) = (m ((c : Thread nD τ).loc main_arg2)) (ix4 (bOf t) (hOf t) k d) := by
  obtain ⟨e0, e1, e2, e3⟩ := idx2 t
  rw [← V_main_arg2 m c]
  show V m c main_arg2 (((cfg0.win 2).blk t).view.emb (ix4 u v k d)) = V m c main_arg2 _
  refine congrArg (V m c main_arg2) (funext fun a => Fin.ext ?_)
  match a with
  | ⟨0, _⟩ => show win0_2.index t (0 : Fin 4) * 1 + 1 * u.val = win0_5.index t (0 : Fin 4); have := u.isLt; omega
  | ⟨1, _⟩ => show win0_2.index t (1 : Fin 4) * 1 + 1 * v.val = win0_5.index t (1 : Fin 4); have := v.isLt; omega
  | ⟨2, _⟩ => show win0_2.index t (2 : Fin 4) * 2048 + 1 * k.val = k.val; omega
  | ⟨3, _⟩ => show win0_2.index t (3 : Fin 4) * 64 + 1 * d.val = d.val; omega

theorem blk3_at (c : Dev nD) (t : Fin cfg0.N) (u v : Fin 1) (p : Fin 512) (k : Fin 2048) :
    iblk m c 3 t (ix4 u v p k) = ((m ((c : Thread nD τ).loc main_arg3)) (ix4 (bOf t) (hOf t) (rowOf t p) k)).setWidth 32 := by
  obtain ⟨e0, e1, e2, e3⟩ := idx3 t
  show (V m c main_v0 : S2x16x2048x2048.Idx → BitVec 32) (((cfg0.win 3).blk t).view.emb (ix4 u v p k)) = _
  rw [V_mask m c]
  show ((m ((c : Thread nD τ).loc main_arg3)) (((cfg0.win 3).blk t).view.emb (ix4 u v p k))).setWidth 32 = _
  refine congrArg (fun i => ((m ((c : Thread nD τ).loc main_arg3)) i).setWidth 32) (funext fun a => Fin.ext ?_)
  match a with
  | ⟨0, _⟩ => show win0_3.index t (0 : Fin 4) * 1 + 1 * u.val = win0_5.index t (0 : Fin 4); have := u.isLt; omega
  | ⟨1, _⟩ => show win0_3.index t (1 : Fin 4) * 1 + 1 * v.val = win0_5.index t (1 : Fin 4); have := v.isLt; omega
  | ⟨2, _⟩ => show win0_3.index t (2 : Fin 4) * 512 + 1 * p.val = win0_5.index t (2 : Fin 4) * 512 + p.val; omega
  | ⟨3, _⟩ => show win0_3.index t (3 : Fin 4) * 2048 + 1 * k.val = k.val; omega

/-! ## What the body leaves in the two output blocks, for blocks that hold rows of Q, K, V and the mask -/

/-- The attention block the body leaves is the payload read under two unit axes. -/
theorem out5_at (x0 : Vec Ideal S1x1x512x64 .f32) (x1 x2 : Vec Ideal S1x1x2048x64 .f32) (x3 : Vec Ideal S1x1x512x2048 .i32)
    (Q K : SQ.Idx → EReal) (M : SA.Idx → BitVec 1) (b : Fin 2) (h : Fin 16) (row : Fin 512 → Fin 2048)
    (hS : ∀ (p : Fin 512) (k : Fin 2048), Ker.kScore x0 x1 x3 (ix2 p k) = score Q K M b h (row p) k)
    (u v : Fin 1) (p : Fin 512) (k : Fin 2048) :
    out0_5 (F := Ideal) x0 x1 x2 x3 (ix4 u v p k) = attn Q K M b h (row p) k := by
  unfold out0_5
  rw [Cert.KernelIdeal.Value.canon5_eq]
  show k0_pay3 (F := Ideal) (View.ld x0 r0_0) (View.ld x1 r0_1) (View.ld x3 r0_2) (Cert.KernelIdeal.Value.ix5_0 (ix4 u v p k)) = _
  rw [View.ld_unit_zero (S := S1x1x512x64) hz, View.ld_unit_zero (S := S1x1x2048x64) hz,
    View.ld_unit_zero (S := S1x1x512x2048) hz]
  have e : Cert.KernelIdeal.Value.ix5_0 (ix4 u v p k) = ix2 p k :=
    funext fun a => Fin.ext (by match a with | ⟨0, _⟩ => rfl | ⟨1, _⟩ => rfl)
  rw [e]
  exact Ker.pay3_at x0 x1 x3 Q K M b h row hS p k

/-- The context block the body leaves. -/
theorem out4_at (x0 : Vec Ideal S1x1x512x64 .f32) (x1 x2 : Vec Ideal S1x1x2048x64 .f32) (x3 : Vec Ideal S1x1x512x2048 .i32)
    (Q K V : SQ.Idx → EReal) (M : SA.Idx → BitVec 1) (b : Fin 2) (h : Fin 16) (row : Fin 512 → Fin 2048)
    (hS : ∀ (p : Fin 512) (k : Fin 2048), Ker.kScore x0 x1 x3 (ix2 p k) = score Q K M b h (row p) k)
    (h2 : ∀ (k : Fin 2048) (d : Fin 64), x2 (ix4 0 0 k d) = V (ix4 b h k d))
    (u v : Fin 1) (p : Fin 512) (d : Fin 64) :
    out0_4 (F := Ideal) x0 x1 x2 x3 (ix4 u v p d) = ctx Q K V M b h (row p) d := by
  unfold out0_4
  rw [View.canon_unit_zero hz, View.ld_unit_zero (S := S1x1x512x64) hz, View.ld_unit_zero (S := S1x1x2048x64) hz,
    View.ld_unit_zero (S := S1x1x2048x64) hz, View.ld_unit_zero (S := S1x1x512x2048) hz]
  exact Ker.pay1_at x0 x1 x2 x3 Q K V M b h row hS h2 u v p d

/-! ## What each point writes back -/

section Points

variable (c : Dev nD)

/-- The masked scores of point `t`'s blocks are the specification's scores of its rows. -/
theorem score_blk (hQ : ∀ i, ∃ r : ℝ, ((m ((c : Thread nD τ).loc main_arg0)) i : EReal) = (r : EReal))
    (hK : ∀ i, ∃ r : ℝ, ((m ((c : Thread nD τ).loc main_arg1)) i : EReal) = (r : EReal))
    (t : Fin cfg0.N) (p : Fin 512) (k : Fin 2048) :
    Ker.kScore (iblk m c 0 t) (iblk m c 1 t) (iblk m c 3 t) (ix2 p k)
      = score (m ((c : Thread nD τ).loc main_arg0)) (m ((c : Thread nD τ).loc main_arg1)) (m ((c : Thread nD τ).loc main_arg3)) (bOf t) (hOf t) (rowOf t p) k :=
  Ker.kScore_at (iblk m c 0 t) (iblk m c 1 t) (iblk m c 3 t) (m ((c : Thread nD τ).loc main_arg0)) (m ((c : Thread nD τ).loc main_arg1)) (m ((c : Thread nD τ).loc main_arg3)) (bOf t) (hOf t) (rowOf t)
    (fun p d => blk0_at m c t 0 0 p d) (fun k d => blk1_at m c t 0 0 k d) (fun p k => blk3_at m c t 0 0 p k) hQ hK p k

/-- Point `t` writes back block `t` of the specification's attention matrix. -/
theorem flushed5_eq (hQ : ∀ i, ∃ r : ℝ, ((m ((c : Thread nD τ).loc main_arg0)) i : EReal) = (r : EReal))
    (hK : ∀ i, ∃ r : ℝ, ((m ((c : Thread nD τ).loc main_arg1)) i : EReal) = (r : EReal))
    (t : Fin cfg0.N) :
    (dats m 0 c).flushed 5 t = ((cfg0.win 5).blk t).view.read (Elt Ideal) (attnArr (m ((c : Thread nD τ).loc main_arg0)) (m ((c : Thread nD τ).loc main_arg1)) (m ((c : Thread nD τ).loc main_arg3))) := by
  obtain ⟨f0, f1, f2, f3⟩ := idx5 t
  rw [Cert.KernelIdeal.Value.flushed5]
  funext y
  obtain ⟨u, v, p, k, rfl⟩ : ∃ (u v : Fin 1) (p : Fin 512) (k : Fin 2048), y = ix4 u v p k :=
    ⟨y 0, y 1, y 2, y 3, eq_ix4 y⟩
  show out0_5 (F := Ideal) (iblk m c 0 t) (iblk m c 1 t) (iblk m c 2 t) (iblk m c 3 t) (ix4 u v p k)
    = attnArr (m ((c : Thread nD τ).loc main_arg0)) (m ((c : Thread nD τ).loc main_arg1)) (m ((c : Thread nD τ).loc main_arg3)) (((cfg0.win 5).blk t).view.emb (ix4 u v p k))
  refine (out5_at (iblk m c 0 t) (iblk m c 1 t) (iblk m c 2 t) (iblk m c 3 t) (m ((c : Thread nD τ).loc main_arg0)) (m ((c : Thread nD τ).loc main_arg1)) (m ((c : Thread nD τ).loc main_arg3)) (bOf t) (hOf t) (rowOf t)
    (score_blk m c hQ hK t) u v p k).trans ?_
  have he : ((cfg0.win 5).blk t).view.emb (ix4 u v p k) = ix4 (bOf t) (hOf t) (rowOf t p) k :=
    funext fun a => Fin.ext (by
      match a with
      | ⟨0, _⟩ => show win0_5.index t (0 : Fin 4) * 1 + 1 * u.val = win0_5.index t (0 : Fin 4); have := u.isLt; omega
      | ⟨1, _⟩ => show win0_5.index t (1 : Fin 4) * 1 + 1 * v.val = win0_5.index t (1 : Fin 4); have := v.isLt; omega
      | ⟨2, _⟩ => show win0_5.index t (2 : Fin 4) * 512 + 1 * p.val = win0_5.index t (2 : Fin 4) * 512 + p.val; omega
      | ⟨3, _⟩ => show win0_5.index t (3 : Fin 4) * 2048 + 1 * k.val = k.val; omega)
  rw [he]
  rfl

/-- Point `t` writes back block `t` of the specification's context. -/
theorem flushed4_eq (hQ : ∀ i, ∃ r : ℝ, ((m ((c : Thread nD τ).loc main_arg0)) i : EReal) = (r : EReal))
    (hK : ∀ i, ∃ r : ℝ, ((m ((c : Thread nD τ).loc main_arg1)) i : EReal) = (r : EReal))
    (t : Fin cfg0.N) :
    (dats m 0 c).flushed 4 t = ((cfg0.win 4).blk t).view.read (Elt Ideal) (ctxArr (m ((c : Thread nD τ).loc main_arg0)) (m ((c : Thread nD τ).loc main_arg1)) (m ((c : Thread nD τ).loc main_arg2)) (m ((c : Thread nD τ).loc main_arg3))) := by
  obtain ⟨e0, e1, e2, e3⟩ := idx4 t
  rw [Cert.KernelIdeal.Value.flushed4]
  funext y
  obtain ⟨u, v, p, d, rfl⟩ : ∃ (u v : Fin 1) (p : Fin 512) (d : Fin 64), y = ix4 u v p d :=
    ⟨y 0, y 1, y 2, y 3, eq_ix4 y⟩
  show out0_4 (F := Ideal) (iblk m c 0 t) (iblk m c 1 t) (iblk m c 2 t) (iblk m c 3 t) (ix4 u v p d)
    = ctxArr (m ((c : Thread nD τ).loc main_arg0)) (m ((c : Thread nD τ).loc main_arg1)) (m ((c : Thread nD τ).loc main_arg2)) (m ((c : Thread nD τ).loc main_arg3)) (((cfg0.win 4).blk t).view.emb (ix4 u v p d))
  refine (out4_at (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) (bOf t) (hOf t) (rowOf t)
    (score_blk m c hQ hK t) (fun k d => blk2_at m c t 0 0 k d) u v p d).trans ?_
  have he : ((cfg0.win 4).blk t).view.emb (ix4 u v p d) = ix4 (bOf t) (hOf t) (rowOf t p) d :=
    funext fun a => Fin.ext (by
      match a with
      | ⟨0, _⟩ => show win0_4.index t (0 : Fin 4) * 1 + 1 * u.val = win0_5.index t (0 : Fin 4); have := u.isLt; omega
      | ⟨1, _⟩ => show win0_4.index t (1 : Fin 4) * 1 + 1 * v.val = win0_5.index t (1 : Fin 4); have := v.isLt; omega
      | ⟨2, _⟩ => show win0_4.index t (2 : Fin 4) * 512 + 1 * p.val = win0_5.index t (2 : Fin 4) * 512 + p.val; omega
      | ⟨3, _⟩ => show win0_4.index t (3 : Fin 4) * 64 + 1 * d.val = d.val; omega)
  rw [he]
  rfl

/-! ## The blocks tile the arrays -/

theorem mem_blk5 (t : Fin cfg0.N) (i : S2x16x2048x2048.Idx) :
    i ∈ ((cfg0.win 5).blk t).view.set ↔ ∀ a : Fin 4, win0_5.index t a * S1x1x512x2048.size a ≤ (i a).val
      ∧ (i a).val < win0_5.index t a * S1x1x512x2048.size a + S1x1x512x2048.size a := by
  show i ∈ ((View.whole main_v1_1).slice (win0_5.rect t)).set ↔ _
  rw [View.set_slice_whole, Rect.mem_set_unit]
  exact Iff.rfl

theorem mem_blk4 (t : Fin cfg0.N) (i : S2x16x2048x64.Idx) :
    i ∈ ((cfg0.win 4).blk t).view.set ↔ ∀ a : Fin 4, win0_4.index t a * S1x1x512x64.size a ≤ (i a).val
      ∧ (i a).val < win0_4.index t a * S1x1x512x64.size a + S1x1x512x64.size a := by
  show i ∈ ((View.whole main_v1_0).slice (win0_4.rect t)).set ↔ _
  rw [View.set_slice_whole, Rect.mem_set_unit]
  exact Iff.rfl

/-- Every index of the attention matrix is in the block of its (batch, head, row / 512). -/
theorem cover5 (i : S2x16x2048x2048.Idx) :
    ∃ t : Fin cfg0.N, (cfg0.win 5).flush t = true ∧ i ∈ ((cfg0.win 5).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ := onto5 ⟨(i 0).val, hi0⟩ ⟨(i 1).val, hi1⟩ ⟨(i 2).val / 512, by omega⟩
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 2048 ≤ (i 3).val ∧ (i 3).val < win0_5.index t (3 : Fin 4) * 2048 + 2048; omega

/-- Every index of the context is in the block of its (batch, head, row / 512). -/
theorem cover4 (i : S2x16x2048x64.Idx) :
    ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := onto5 ⟨(i 0).val, hi0⟩ ⟨(i 1).val, hi1⟩ ⟨(i 2).val / 512, by omega⟩
  obtain ⟨e0, e1, e2, e3⟩ := idx4 t
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-! ## The arrays after the run -/

theorem final5 (hQ : ∀ i, ∃ r : ℝ, ((m ((c : Thread nD τ).loc main_arg0)) i : EReal) = (r : EReal))
    (hK : ∀ i, ∃ r : ℝ, ((m ((c : Thread nD τ).loc main_arg1)) i : EReal) = (r : EReal)) :
    (dats m 0 c).arrAt 5 cfg0.N = attnArr (m ((c : Thread nD τ).loc main_arg0)) (m ((c : Thread nD τ).loc main_arg1)) (m ((c : Thread nD τ).loc main_arg3)) :=
  (dats m 0 c).arrAt_eq_of_cover 5 (attnArr (m ((c : Thread nD τ).loc main_arg0)) (m ((c : Thread nD τ).loc main_arg1)) (m ((c : Thread nD τ).loc main_arg3))) (fun t _ => flushed5_eq m c hQ hK t) (cover5)

theorem final4 (hQ : ∀ i, ∃ r : ℝ, ((m ((c : Thread nD τ).loc main_arg0)) i : EReal) = (r : EReal))
    (hK : ∀ i, ∃ r : ℝ, ((m ((c : Thread nD τ).loc main_arg1)) i : EReal) = (r : EReal)) :
    (dats m 0 c).arrAt 4 cfg0.N = ctxArr (m ((c : Thread nD τ).loc main_arg0)) (m ((c : Thread nD τ).loc main_arg1)) (m ((c : Thread nD τ).loc main_arg2)) (m ((c : Thread nD τ).loc main_arg3)) :=
  (dats m 0 c).arrAt_eq_of_cover 4 (ctxArr (m ((c : Thread nD τ).loc main_arg0)) (m ((c : Thread nD τ).loc main_arg1)) (m ((c : Thread nD τ).loc main_arg2)) (m ((c : Thread nD τ).loc main_arg3))) (fun t _ => flushed4_eq m c hQ hK t) cover4

end Points

/-! ## The run, read -/

/-- With Q and K real, every weakly fair execution of the kernel's program ends with the context and the attention matrix
    of the specification in its two result arrays, the arguments unchanged. -/
theorem run (hQ : ∀ (c : Dev nD) i, ∃ r : ℝ, ((m ((c : Thread nD τ).loc main_arg0)) i : EReal) = (r : EReal))
    (hK : ∀ (c : Dev nD) i, ∃ r : ℝ, ((m ((c : Thread nD τ).loc main_arg1)) i : EReal) = (r : EReal)) :
    θ_run defs (onTc (τ := τ) (main (F := Ideal))) ⟨m, fun _ => 0, ρ⟩ fun r => ∀ c : Dev nD,
      r.2.mem ((c : Thread nD τ).loc main_v1_0) = ctxArr (m ((c : Thread nD τ).loc main_arg0)) (m ((c : Thread nD τ).loc main_arg1)) (m ((c : Thread nD τ).loc main_arg2)) (m ((c : Thread nD τ).loc main_arg3))
      ∧ r.2.mem ((c : Thread nD τ).loc main_v1_1) = attnArr (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c (hQ c) (hK c)),
      (h c).2.1.trans (final5 m c (hQ c) (hK c)), (h c).2.2⟩)
    (Cert.KernelIdeal.Value.run_blocks m ρ)

end Cert.Attn.Blocks

end
-- ==== Proof.AttnRef.lean ====
/-
  The reference program's stages, read at an index, are the masked softmax attention of the specification.

  Stage by stage, at batch b, head h, query row q: the selected product-sum times 1/8 is the score; the reduction by
  maximum along the key axis, started from -infinity and then joined once more with -infinity, is the row maximum (the
  second join changes nothing: -infinity is the least element); the exponential of the difference is the weight; zero plus
  the sum of the weights is the denominator; the quotient is the attention entry; and the product-sum of the attention row
  with a column of V is the context entry. No finiteness is needed: every step is the same operation on both sides.
-/
import proofs.«158610_j7584912245195_2_alg».proof.Proof.Gen.ReferenceIdeal.Read
import proofs.«158610_j7584912245195_2_alg».proof.Proof.AttnSpec
import Idealize.ShloMosaic.PureOps.Reduce

noncomputable section

namespace Cert.Attn.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Attn

variable (Q K V : FVec Ideal SQ .f32) (M : IVec SA 1)

/-! ## The index maps of the stages, at coordinates -/

theorem lidx0 (b : Fin 2) (h : Fin 16) (q k : Fin 2048) (d : Fin 64) : lidx_main_v0 (ix4 b h q k) d = ix4 b h q d :=
  funext fun a => Fin.ext (by match a with | ⟨0, _⟩ => rfl | ⟨1, _⟩ => rfl | ⟨2, _⟩ => rfl | ⟨3, _⟩ => rfl)

theorem ridx0 (b : Fin 2) (h : Fin 16) (q k : Fin 2048) (d : Fin 64) : ridx_main_v0 (ix4 b h q k) d = ix4 b h k d :=
  funext fun a => Fin.ext (by match a with | ⟨0, _⟩ => rfl | ⟨1, _⟩ => rfl | ⟨2, _⟩ => rfl | ⟨3, _⟩ => rfl)

theorem idx78 (b : Fin 2) (h : Fin 16) (q k : Fin 2048) : idx_main_v7 (idx_main_v8 (ix4 b h q k)) = ix3 b h q :=
  funext fun a => Fin.ext (by match a with | ⟨0, _⟩ => rfl | ⟨1, _⟩ => rfl | ⟨2, _⟩ => rfl)

theorem idx1213 (b : Fin 2) (h : Fin 16) (q k : Fin 2048) : idx_main_v12 (idx_main_v13 (ix4 b h q k)) = ix3 b h q :=
  funext fun a => Fin.ext (by match a with | ⟨0, _⟩ => rfl | ⟨1, _⟩ => rfl | ⟨2, _⟩ => rfl)

theorem idx11 (b : Fin 2) (h : Fin 16) (q : Fin 2048) (k : Fin 2048) : idx_main_v11 (ix3 b h q) k = ix4 b h q k :=
  funext fun a => Fin.ext (by match a with | ⟨0, _⟩ => rfl | ⟨1, _⟩ => rfl | ⟨2, _⟩ => rfl | ⟨3, _⟩ => rfl)

theorem lidx15 (b : Fin 2) (h : Fin 16) (q : Fin 2048) (d : Fin 64) (k : Fin 2048) :
    lidx_main_v15 (ix4 b h q d) k = ix4 b h q k :=
  funext fun a => Fin.ext (by match a with | ⟨0, _⟩ => rfl | ⟨1, _⟩ => rfl | ⟨2, _⟩ => rfl | ⟨3, _⟩ => rfl)

theorem ridx15 (b : Fin 2) (h : Fin 16) (q : Fin 2048) (d : Fin 64) (k : Fin 2048) :
    ridx_main_v15 (ix4 b h q d) k = ix4 b h k d :=
  funext fun a => Fin.ext (by match a with | ⟨0, _⟩ => rfl | ⟨1, _⟩ => rfl | ⟨2, _⟩ => rfl | ⟨3, _⟩ => rfl)

/-- Inserting key `k` on the last axis of `(b, h, q)` gives `(b, h, q, k)`. -/
theorem lift3 (hR : SA.Reduces [3] (⟨3, ![2, 16, 2048]⟩ : Shape)) (b : Fin 2) (h : Fin 16) (q : Fin 2048) (k : Fin 2048) :
    hR.lift (ix3 b h q) k = ix4 b h q k :=
  funext fun a => Fin.ext (by match a with | ⟨0, _⟩ => rfl | ⟨1, _⟩ => rfl | ⟨2, _⟩ => rfl | ⟨3, _⟩ => rfl)

/-! ## The stages -/

/-- The selected, scaled product-sum is the score. -/
theorem v3_at (b : Fin 2) (h : Fin 16) (q k : Fin 2048) :
    val_main_v3 (F := Ideal) Q K M (ix4 b h q k) = score Q K M b h q k := by
  rw [val_main_v3_apply, val_main_call0_v0_apply, val_main_cst_0_apply, val_main_v2_apply, val_main_v0_apply,
    val_main_v1_apply, val_main_cst_apply]
  simp only [lidx0, ridx0]
  rfl

/-- The reduction by maximum along the keys, joined once more with -infinity, is the row maximum. -/
theorem v6_at (b : Fin 2) (h : Fin 16) (q : Fin 2048) :
    val_main_v6 (F := Ideal) Q K M (ix3 b h q) = rowMax Q K M b h q := by
  have hR : SA.Reduces [3] (⟨3, ![2, 16, 2048]⟩ : Shape) := by decide
  have h4 : val_main_v4 (F := Ideal) Q K M (ix3 b h q) = rowMax Q K M b h q := by
    unfold val_main_v4
    refine (Host.reduce_eq_fold_single (FloatOps.maximumf (F := Ideal) (φ := .f32)) _ _
      reducesTo_S2x16x2048x2048_S2x16x2048_d3 hR h_S_ (ix3 b h q)).trans ?_
    have hf : (val_main_v3 (F := Ideal) Q K M ∘ hR.lift (ix3 b h q)) = fun k => score Q K M b h q k :=
      funext fun k => (congrArg (val_main_v3 (F := Ideal) Q K M) (lift3 hR b h q k)).trans (v3_at Q K M b h q k)
    exact congrArg (fun f => (Finset.univ : Finset (Fin 2048)).fold max (Ideal.ofBits .f32 0xFF800000#32) f) hf
  rw [val_main_v6_apply, val_main_v5_apply, val_main_cst_2_apply, h4]
  show max (Ideal.ofBits .f32 0xFF800000#32) _ = _
  rw [ofBits_neg_inf]
  exact max_eq_right bot_le

/-- The exponential of the score less the row maximum is the weight. -/
theorem v10_at (b : Fin 2) (h : Fin 16) (q k : Fin 2048) :
    val_main_v10 (F := Ideal) Q K M (ix4 b h q k) = weight Q K M b h q k := by
  rw [val_main_v10_apply, val_main_v9_apply, val_main_v8_apply, val_main_v7_apply, idx78, v3_at, v6_at]
  rfl

/-- Zero plus the sum of the row's weights is the denominator. -/
theorem v11_at (b : Fin 2) (h : Fin 16) (q : Fin 2048) :
    val_main_v11 (F := Ideal) Q K M (ix3 b h q) = denom Q K M b h q := by
  rw [val_main_v11_apply, val_main_cst_3_apply]
  show Ideal.ofBits .f32 0x00000000#32 + _ = _
  rw [Ideal.ofBits_zero_f32, zero_add]
  exact Finset.sum_congr rfl fun k _ => by rw [idx11, v10_at]

/-- The quotient is the attention entry. -/
theorem v14_at (b : Fin 2) (h : Fin 16) (q k : Fin 2048) :
    val_main_v14 (F := Ideal) Q K M (ix4 b h q k) = attn Q K M b h q k := by
  rw [val_main_v14_apply, val_main_v13_apply, val_main_v12_apply, idx1213, v10_at, v11_at]
  rfl

/-- The product-sum of the attention row with a column of V is the context entry. -/
theorem v15_at (b : Fin 2) (h : Fin 16) (q : Fin 2048) (d : Fin 64) :
    val_main_v15 (F := Ideal) Q K V M (ix4 b h q d) = ctx Q K V M b h q d := by
  rw [val_main_v15_apply]
  exact Finset.sum_congr rfl fun k _ => by rw [lidx15, ridx15, v14_at]

/-- The reference's attention result is the specification's array. -/
theorem attn_eq : val_main_v14 (F := Ideal) Q K M = attnArr Q K M := by
  funext i
  obtain ⟨b, h, q, k, rfl⟩ : ∃ (b : Fin 2) (h : Fin 16) (q k : Fin 2048), i = ix4 b h q k := ⟨i 0, i 1, i 2, i 3, eq_ix4 i⟩
  exact v14_at Q K M b h q k

/-- The reference's context result is the specification's array. -/
theorem ctx_eq : val_main_v15 (F := Ideal) Q K V M = ctxArr Q K V M := by
  funext i
  obtain ⟨b, h, q, d, rfl⟩ : ∃ (b : Fin 2) (h : Fin 16) (q : Fin 2048) (d : Fin 64), i = ix4 b h q d := ⟨i 0, i 1, i 2, i 3, eq_ix4 i⟩
  exact v15_at Q K V M b h q d

end Cert.Attn.Ref

end
-- ==== Proof.LibFinite.lean ====
/-
  Finiteness read back from a printed "all entries finite" test, at the ideal float values
  (every float an extended real). The test of one array x is the conjunction over all indices of
  |x i| < +∞, where |x| is max x (-x) and +∞ is the value of the IEEE pattern 0x7F800000; it
  is printed as a reduction by "and" of the array of comparison bits, from the constant 1, into a
  result with a single index.

  Contents.
  * one element: |x| < +∞ (as a comparison bit equal to 1) makes x a real number;
  * one array: a reduction by "and" over all axes of those bits that is 1 makes every entry real;
  * the empty-rank shape has one index.
-/
import Idealize.ShloMosaic.Lib.ReduceAll
import Idealize.ShloMosaic.PureOps.Ideal

noncomputable section

namespace Cert.Finite

open Idealize.ShloMosaic

/-- An extended real that is neither infinity is a real number. -/
theorem exists_real_of_ne {x : EReal} (ht : x ≠ ⊤) (hb : x ≠ ⊥) : ∃ r : ℝ, x = (r : EReal) := by
  induction x using EReal.rec with
  | bot => exact absurd rfl hb
  | coe r => exact ⟨r, rfl⟩
  | top => exact absurd rfl ht

/-- The IEEE single-precision pattern 0x7F800000 denotes +∞. -/
theorem ofBits_inf : Ideal.ofBits .f32 0x7F800000#32 = (⊤ : EReal) := by
  simp [Ideal.ofBits, Ideal.ieee]

/-- For an extended real x, max x (-x) < ⊤ exactly when x is neither infinity. -/
theorem abs_lt_top_iff (x : EReal) : max x (-x) < ⊤ ↔ x ≠ ⊤ ∧ x ≠ ⊥ := by
  rw [max_lt_iff, lt_top_iff_ne_top, lt_top_iff_ne_top]
  constructor
  · rintro ⟨h1, h2⟩
    exact ⟨h1, fun hb => h2 (by rw [hb]; rfl)⟩
  · rintro ⟨h1, h2⟩
    exact ⟨h1, fun ht => h2 (by simpa using ht)⟩

/-- One element: if the comparison bit of |x| < +∞ is 1 then x is a real number. Here |x| is the
    host's absolute value max x (-x) and +∞ is given by its bit pattern. -/
theorem real_of_abs_lt_inf (x : Ideal .f32)
    (h : FloatOps.cmpf (F := Ideal) .olt (FloatOps.hostAbsf (F := Ideal) x)
        (FloatOps.ofBits (F := Ideal) .f32 0x7F800000#32) = 1#1) : ∃ r : ℝ, (x : EReal) = (r : EReal) := by
  have h' : Ideal.cmp .olt (max (x : EReal) (-(x : EReal))) (Ideal.ofBits .f32 0x7F800000#32) = 1#1 := h
  rw [ofBits_inf] at h'
  unfold Ideal.cmp at h'
  have hlt : max (x : EReal) (-(x : EReal)) < ⊤ := by
    by_contra hn
    simp [hn] at h'
  obtain ⟨ht, hb⟩ := (abs_lt_top_iff x).mp hlt
  exact exists_real_of_ne ht hb

/-- One array: if the reduction by "and" over all axes (into a result with one index) of the bits
    |x i| < inf i is 1, where every inf i is the pattern of +∞, then every entry of x is real. -/
theorem real_of_all {s t u : Shape} {axes : List (Fin s.rank)} [Subsingleton t.Idx]
    (x inf : FVec Ideal s .f32) (hinf : ∀ i, inf i = FloatOps.ofBits (F := Ideal) .f32 0x7F800000#32)
    (init : IVec u 1) (h : s.ReducesTo axes t) (hu : 0 < u.numel) (j : t.Idx)
    (e : Host.reduce IntOp.andi (cmpf (F := Ideal) .olt (Host.absf (F := Ideal) x) inf) init h hu j = 1#1)
    (i : s.Idx) : ∃ r : ℝ, (x i : EReal) = (r : EReal) := by
  have hi := Host.reduce_andi_all _ init h hu j e i
  refine real_of_abs_lt_inf (x i) ?_
  rw [← hinf i]
  exact hi

/-- The shape of rank zero has exactly one index. -/
instance subsingleton_idx_rank0 : Subsingleton (Shape.Idx ⟨0, ![]⟩) :=
  ⟨fun a b => funext fun d => d.elim0⟩

end Cert.Finite

end
-- ==== Proof.AttnFinite.lean ====
/-
  The precondition "every float input is finite", read back: under it every entry of Q, K and V is a real number.

  The precondition is the conjunction of three tests, one per float argument, each the reduction by "and" over all
  four axes of the bits |x i| < +infinity. A conjunction that is 1 has both parts 1, and each test that is 1 makes every
  entry of its array real.
-/
import proofs.«158610_j7584912245195_2_alg».proof.Pre_finite_inputs
import proofs.«158610_j7584912245195_2_alg».proof.Proof.LibFinite
import Idealize.ShloMosaic.Lib.Affine
import Idealize.ShloMosaic.Lib.Pipeline.Value
import Idealize.ShloMosaic.Lib.ValueIdx

noncomputable section

namespace Cert.Attn.Pre

open Idealize.ShloMosaic Cert.Pre_finite_inputs Cert.Pre_finite_inputs.Facts

/-- The array of +infinity patterns the test compares against holds that pattern at every index. -/
theorem inf_at [Cert.Pre_finite_inputs.Facts] (j : S2x16x2048x64.Idx) :
    broadcastInDim (α := Ideal .f32) S2x16x2048x64 ![] bcast_S_S2x16x2048x64 (constant (F := Ideal) S_ .f32 0x7F800000#32) j
      = FloatOps.ofBits (F := Ideal) .f32 0x7F800000#32 :=
  (broadcastInDim_apply _ bcast_S_S2x16x2048x64 _ j (fun a => a.elim0) (fun a => a.elim0)).trans rfl

/-- Under the precondition every entry of the three float arguments is a real number. -/
theorem real_of_pre [Cert.Pre_finite_inputs.Facts] (a0 a1 a2 : FVec Ideal S2x16x2048x64 .f32) (a3 : IVec S2x16x2048x2048 1)
    (hpre : Cert.Pre_finite_inputs.fn (F := Ideal) a0 a1 a2 a3 = fun _ => 1#1) :
    (∀ i, ∃ r : ℝ, (a0 i : EReal) = (r : EReal)) ∧ (∀ i, ∃ r : ℝ, (a1 i : EReal) = (r : EReal))
      ∧ (∀ i, ∃ r : ℝ, (a2 i : EReal) = (r : EReal)) := by
  have h0 := congrFun hpre ValueIdx.ix0
  dsimp only [Cert.Pre_finite_inputs.fn] at h0
  obtain ⟨h8, h12⟩ := IntOp.andi_eq_one.mp h0
  obtain ⟨h3, h7⟩ := IntOp.andi_eq_one.mp h8
  exact ⟨fun i => Cert.Finite.real_of_all a0 _ inf_at _ _ _ ValueIdx.ix0 h3 i,
    fun i => Cert.Finite.real_of_all a1 _ inf_at _ _ _ ValueIdx.ix0 h7 i,
    fun i => Cert.Finite.real_of_all a2 _ inf_at _ _ _ ValueIdx.ix0 h12 i⟩

end Cert.Attn.Pre

end
-- ==== Proof.lean ====
/-
  Scaled dot-product attention with a mask: the tiled kernel and the plain reference compute the same two arrays.

  For Q, K, V of shape [2, 16, 2048, 64] and a mask of shape [2, 16, 2048, 2048], both programs return the attention
  matrix softmax_k (s(q, k)) and the context, its product with V, where the score s(q, k) is -1e9 at masked positions and
  (sum over d of Q(q, d) * K(k, d)) / 8 elsewhere, and the softmax subtracts each row's maximum before exponentiating.

  On the extended reals the two programs differ in three places. The kernel works in blocks of 512 query rows, one grid
  point per (batch, head, row block); the blocks tile the result arrays. The kernel receives the mask widened to 32-bit
  words and tests them against zero, which gives back the mask's bits. And the kernel multiplies the query entries by 1/8
  before the contraction where the reference multiplies the contracted sum: the two agree because under the precondition
  every entry of Q and K is a real number (with an infinite entry the two sums could differ). Everything after the scores
  — the row maximum from -infinity (the reference joins it once more with -infinity, which changes nothing), the
  exponentials, the row sums, the quotients, the contraction with V — is the same operation on both sides, read through
  the different spellings of a reduction and of a matrix product.

  The three frames are the generated ones (the reference's is its generated run with the results dropped), the
  idealization rewrote nothing, and the equality of the results is the kernel's run and the reference's run both ending
  at the specification's arrays.
-/
import proofs.«158610_j7584912245195_2_alg».proof.Defs
import proofs.«158610_j7584912245195_2_alg».proof.Proof.Gen.Kernel
import proofs.«158610_j7584912245195_2_alg».proof.Proof.Gen.Kernel.Skeleton
import proofs.«158610_j7584912245195_2_alg».proof.Proof.Gen.Kernel.Launch
import proofs.«158610_j7584912245195_2_alg».proof.Proof.Gen.Kernel.Points
import proofs.«158610_j7584912245195_2_alg».proof.Proof.Gen.Kernel.Frame
import proofs.«158610_j7584912245195_2_alg».proof.Proof.Gen.KernelIdeal
import proofs.«158610_j7584912245195_2_alg».proof.Proof.Gen.KernelIdeal.Skeleton
import proofs.«158610_j7584912245195_2_alg».proof.Proof.Gen.KernelIdeal.Launch
import proofs.«158610_j7584912245195_2_alg».proof.Proof.Gen.KernelIdeal.Points
import proofs.«158610_j7584912245195_2_alg».proof.Proof.Gen.KernelIdeal.Frame
import proofs.«158610_j7584912245195_2_alg».proof.Proof.Gen.ReferenceIdeal
import proofs.«158610_j7584912245195_2_alg».proof.Proof.Gen.Pre_finite_inputs
import proofs.«158610_j7584912245195_2_alg».proof.Proof.Gen.KernelIdeal.Value
import proofs.«158610_j7584912245195_2_alg».proof.Proof.Gen.ReferenceIdeal.Run
import proofs.«158610_j7584912245195_2_alg».proof.Proof.Gen.ReferenceIdeal.Read
import proofs.«158610_j7584912245195_2_alg».proof.Proof.AttnBlocks
import proofs.«158610_j7584912245195_2_alg».proof.Proof.AttnRef
import proofs.«158610_j7584912245195_2_alg».proof.Proof.AttnFinite
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments, with every float argument finite, the idealized kernel and the idealized
    reference both end with the specification's context and attention matrix of those arguments. -/
theorem algebraic : Cert.algebraic_KernelIdeal_ReferenceIdeal := by
  intro m ρ m' ρ' hpre hagree
  have hfin := fun c => Cert.Attn.Pre.real_of_pre _ _ _ _ (hpre c)
  refine ⟨_, _, Cert.Attn.Blocks.run m ρ (fun c => (hfin c).1) (fun c => (hfin c).2.1), ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2]
    exact (Cert.ReferenceIdeal.Read.val_main_v15_eq _ _ _ _).trans (Cert.Attn.Ref.ctx_eq _ _ _ _)
  · rw [(hagree c).1, (hagree c).2.1, (hagree c).2.2.2]
    exact (Cert.ReferenceIdeal.Read.val_main_v14_eq _ _ _).trans (Cert.Attn.Ref.attn_eq _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
